-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S32x256x1024 : Shape := ⟨3, ![32, 256, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 4
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S32x256x1024, .f32⟩
  | .hbm, ⟨2, _⟩ => ⟨S32x256x1024, .f32⟩
  | .hbm, ⟨3, _⟩ => ⟨S8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x1024_S32x256x1024 : S8192x1024.ShapeCasts S32x256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  broadcasts_S1x1_S256x1024 : S1x1.Broadcasts S256x1024
  shapeCasts_S256x1024_S1x256x1024 : S256x1024.ShapeCasts S1x256x1024
  shapeCasts_S32x256x1024_S8192x1024 : S32x256x1024.ShapeCasts S8192x1024
  dot_S256x1024_S256x1024_S1024x1024_0_0_1_1_n_n_wf : DotDims.WF S256x1024 S256x1024 S1024x1024 [0] [0] [1] [1] [] []
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x256x1024.size a
  hwx0_1 : ∀ i : grid0.Coords, EltTy.bits .f32 = 32 ∨ (Rect.block (s := S32x256x1024) S1x256x1024.size (cc0_transform_1 i) (hinb0_1 i)).WholeWords (EltTy.packing .f32)

variable [Facts₀]

def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32 : Shape := ⟨1, ![32]⟩
abbrev S32x1x1 : Shape := ⟨3, ![32, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x256x1024, .f32⟩
  | .hbm, ⟨2, _⟩ => ⟨S_, .f32⟩
  | .hbm, ⟨3, _⟩ => ⟨S32x256, .f32⟩
  | .hbm, ⟨4, _⟩ => ⟨S32x256x1, .f32⟩
  | .hbm, ⟨5, _⟩ => ⟨S_, .f32⟩
  | .hbm, ⟨6, _⟩ => ⟨S32x256x1, .f32⟩
  | .hbm, ⟨7, _⟩ => ⟨S32x256x1, .f32⟩
  | .hbm, ⟨8, _⟩ => ⟨S32x256x1024, .f32⟩
  | .hbm, ⟨9, _⟩ => ⟨S32x256x1024, .f32⟩
  | .hbm, ⟨10, _⟩ => ⟨S32x1024x1024, .f32⟩
  | .hbm, ⟨11, _⟩ => ⟨S1024x1024, .i32⟩
  | .hbm, ⟨12, _⟩ => ⟨S1024x1024, .i32⟩
  | .hbm, ⟨13, _⟩ => ⟨S_, .i32⟩
  | .hbm, ⟨14, _⟩ => ⟨S1024x1024, .i32⟩
  | .hbm, ⟨15, _⟩ => ⟨S1024x1024, .i32⟩
  | .hbm, ⟨16, _⟩ => ⟨S1024x1024, .i1⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1x1024x1024, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32, .f32⟩
  | .hbm, ⟨27, _⟩ => ⟨S32x1x1, .f32⟩
  | .hbm, ⟨28, _⟩ => ⟨S32x1x1, .f32⟩
  | .hbm, ⟨29, _⟩ => ⟨S1024x1024, .i32⟩
  | .hbm, ⟨30, _⟩ => ⟨S1024x1024, .i32⟩
  | .hbm, ⟨31, _⟩ => ⟨S_, .i32⟩
  | .hbm, ⟨32, _⟩ => ⟨S1024x1024, .i32⟩
  | .hbm, ⟨33, _⟩ => ⟨S1024x1024, .i32⟩
  | .hbm, ⟨34, _⟩ => ⟨S1024x1024, .i1⟩
  | .hbm, ⟨35, _⟩ => ⟨S1024x1024, .f32⟩
  | .hbm, ⟨36, _⟩ => ⟨S32x1024x1024, .f32⟩
  | .hbm, ⟨37, _⟩ => ⟨S32x1024x1024, .f32⟩
  | .hbm, ⟨38, _⟩ => ⟨S32x1024x1024, .f32⟩
  | .hbm, ⟨39, _⟩ => ⟨S_, .f32⟩
  | .hbm, ⟨40, _⟩ => ⟨S32x1024x1024, .f32⟩
  | .hbm, ⟨41, _⟩ => ⟨S32x1024x1024, .f32⟩
  | .hbm, ⟨42, _⟩ => ⟨S32x1024x1024, .f32⟩
  | .hbm, ⟨43, _⟩ => ⟨S_, .f32⟩
  | .hbm, ⟨44, _⟩ => ⟨S32x1024x1024, .f32⟩
  | .hbm, ⟨45, _⟩ => ⟨S32x1024x1024, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S_, .f32⟩
  | .hbm, ⟨50, _⟩ => ⟨S32x1024x1024, .f32⟩
  | .hbm, ⟨51, _⟩ => ⟨S32x1024x1024, .f32⟩
  | .hbm, ⟨52, _⟩ => ⟨S32x1024x1024, .f32⟩
  | .hbm, ⟨53, _⟩ => ⟨S_, .f32⟩
  | .hbm, ⟨54, _⟩ => ⟨S32x1024x1024, .f32⟩
  | .hbm, ⟨55, _⟩ => ⟨S32x1024x1024, .f32⟩
  | .hbm, ⟨56, _⟩ => ⟨S32x1024x1024, .f32⟩
  | .hbm, ⟨57, _⟩ => ⟨S32x256x1024, .f32⟩
  | .hbm, ⟨58, _⟩ => ⟨S32x1x1, .f32⟩
  | .hbm, ⟨59, _⟩ => ⟨S32x256x1024, .f32⟩
  | .hbm, ⟨60, _⟩ => ⟨S32x256x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]

class Facts₀ : Prop where
  shapeCasts_S8192x1024_S32x256x1024 : S8192x1024.ShapeCasts S32x256x1024
  reducesTo_S32x256x1024_S32x256_d2 : S32x256x1024.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x1024_0_1_2 : S32x256x1.BroadcastsInDim S32x256x1024 (![0, 1, 2] : Fin 3 → Fin S32x256x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32_d1_2 : S32x1024x1024.ReducesTo [1, 2] S32
  bcast_S32_S32x1x1_0 : S32.BroadcastsInDim S32x1x1 (![0] : Fin 1 → Fin S32x1x1.rank)
  bcast_S1024x1024_S32x1024x1024_1_2 : S1024x1024.BroadcastsInDim S32x1024x1024 (![1, 2] : Fin 2 → Fin S32x1024x1024.rank)
  bcast_S_S32x1024x1024 : S_.BroadcastsInDim S32x1024x1024 (![] : Fin 0 → Fin S32x1024x1024.rank)
  bcast_S32x1x1_S32x256x1024_0_1_2 : S32x1x1.BroadcastsInDim S32x256x1024 (![0, 1, 2] : Fin 3 → Fin S32x256x1024.rank)
  shapeCasts_S32x256x1024_S8192x1024 : S32x256x1024.ShapeCasts S8192x1024
  dot_S32x256x1024_S32x256x1024_S32x1024x1024_1_1_2_2_0_0_wf : DotDims.WF S32x256x1024 S32x256x1024 S32x1024x1024 [1] [1] [2] [2] [0] [0]
  dot_S32x1024x1024_S32x1024x1024_S32x1024x1024_2_1_1_2_0_0_wf : DotDims.WF S32x1024x1024 S32x1024x1024 S32x1024x1024 [2] [1] [1] [2] [0] [0]
  dot_S32x256x1024_S32x1024x1024_S32x256x1024_2_1_1_2_0_0_wf : DotDims.WF S32x256x1024 S32x1024x1024 S32x256x1024 [2] [1] [1] [2] [0] [0]

variable [Facts₀]

def dot_S32x256x1024_S32x256x1024_S32x1024x1024_1_1_2_2_0_0 : DotDims S32x256x1024 S32x256x1024 S32x1024x1024 where
  lhsContracting := [1]
  rhsContracting := [1]
  lhsNonContracting := [2]
  rhsNonContracting := [2]
  lhsBatch := [0]
  rhsBatch := [0]
  wf := dot_S32x256x1024_S32x256x1024_S32x1024x1024_1_1_2_2_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x256x1024_S32x1024x1024_S32x256x1024_2_1_1_2_0_0 : DotDims S32x256x1024 S32x1024x1024 S32x256x1024 where
  lhsContracting := [2]
  rhsContracting := [1]
  lhsNonContracting := [1]
  rhsNonContracting := [2]
  lhsBatch := [0]
  rhsBatch := [0]
  wf := dot_S32x256x1024_S32x1024x1024_S32x256x1024_2_1_1_2_0_0_wf

class Facts : Prop extends Facts₀ where

variable [Facts]
-- ==== Proof.KernelMatmul.lean ====
/-
  The idealized kernel's three matrix products read at an index, at the extended reals.

  A matrix unit's product into a zero accumulator is the plain sum over the contracted axis. For the Gram product
  (both operands contracted over their ROWS) entry (i, j) is Σ_r A r i · B r j; for the two ordinary products
  entry (i, j) is Σ_k A i k · B k j. Each operand's index at an output index and a contraction position is named
  coordinate by coordinate: the contracted axis carries the position, the other axis the output's coordinate.
-/
import proofs.«151079_j12421045420977_2_alg».proof.Proof.Gen.KernelIdeal
import Idealize.ShloMosaic.PureOps.Ideal.Laws
import Idealize.ShloMosaic.Lib.ValueIdx

noncomputable section

namespace Cert.KernelIdeal.Ops

open Idealize.ShloMosaic Idealize.ShloMosaic.ValueIdx Cert.KernelIdeal Cert.KernelIdeal.Gen

/-- The Gram product's dimension numbers: rows against rows. -/
abbrev dGram : DotDims S256x1024 S256x1024 S1024x1024 := dot_S256x1024_S256x1024_S1024x1024_0_0_1_1_n_n
/-- A square product's dimension numbers. -/
abbrev dSquare : DotDims S1024x1024 S1024x1024 S1024x1024 := dot_S1024x1024_S1024x1024_S1024x1024_1_0_0_1_n_n
/-- The dimension numbers of the centred rows times a square matrix. -/
abbrev dRows : DotDims S256x1024 S1024x1024 S256x1024 := dot_S256x1024_S1024x1024_S256x1024_1_0_0_1_n_n

/-! ## The Gram product -/

theorem gram_lhs0 (o : S1024x1024.Idx) (q : dGram.contr.Idx) : (dGram.lhsIdx o q 0).val = (q ⟨0, by decide⟩).val :=
  dGram.lhsIdx_val_of_single rfl o q
theorem gram_lhs1 (o : S1024x1024.Idx) (q : dGram.contr.Idx) : (dGram.lhsIdx o q 1).val = (o 0).val := by
  unfold DotDims.lhsIdx
  rw [dif_neg (show ¬(1 : Fin S256x1024.rank) ∈ dGram.lhsBatch by decide), dif_pos (show (1 : Fin S256x1024.rank) ∈ dGram.lhsNonContracting by decide)]
  rfl
theorem gram_rhs0 (o : S1024x1024.Idx) (q : dGram.contr.Idx) : (dGram.rhsIdx o q 0).val = (q ⟨0, by decide⟩).val :=
  dGram.rhsIdx_val_of_single rfl o q
theorem gram_rhs1 (o : S1024x1024.Idx) (q : dGram.contr.Idx) : (dGram.rhsIdx o q 1).val = (o 1).val := by
  unfold DotDims.rhsIdx
  rw [dif_neg (show ¬(1 : Fin S256x1024.rank) ∈ dGram.rhsBatch by decide), dif_pos (show (1 : Fin S256x1024.rank) ∈ dGram.rhsNonContracting by decide)]
  rfl

/-- Entry (i, j) of the Gram product is the sum over the rows of column i times column j. -/
theorem matmul_gram_apply {φ₁ φ₂ : FTy} (A : FVec Ideal S256x1024 φ₁) (B : FVec Ideal S256x1024 φ₂) (i j : Fin 1024) :
    matmul dGram none A B (constant S1024x1024 .f32 0x00000000#32) (ix2 i j)
      = ∑ r : Fin 256, A (ix2 r i) * B (ix2 r j) := by
  refine (Ideal.matmul_constant_zero_apply dGram none A B (ix2 i j)).trans ?_
  rw [← Equiv.sum_comp (contrEquiv1 dGram 256 rfl rfl).symm]
  refine Finset.sum_congr rfl fun k _ => ?_
  have hk := contrEquiv1_symm_val dGram 256 rfl rfl k
  have el : dGram.lhsIdx (ix2 i j) ((contrEquiv1 dGram 256 rfl rfl).symm k) = ix2 k i := funext fun a => Fin.ext (by
    match a with
    | ⟨0, _⟩ => exact (gram_lhs0 _ _).trans hk
    | ⟨1, _⟩ => exact gram_lhs1 _ _)
  have er : dGram.rhsIdx (ix2 i j) ((contrEquiv1 dGram 256 rfl rfl).symm k) = ix2 k j := funext fun a => Fin.ext (by
    match a with
    | ⟨0, _⟩ => exact (gram_rhs0 _ _).trans hk
    | ⟨1, _⟩ => exact gram_rhs1 _ _)
  rw [el, er]

/-! ## A square product -/

theorem square_lhs0 (o : S1024x1024.Idx) (q : dSquare.contr.Idx) : (dSquare.lhsIdx o q 0).val = (o 0).val := by
  unfold DotDims.lhsIdx
  rw [dif_neg (show ¬(0 : Fin S1024x1024.rank) ∈ dSquare.lhsBatch by decide), dif_pos (show (0 : Fin S1024x1024.rank) ∈ dSquare.lhsNonContracting by decide)]
  rfl
theorem square_lhs1 (o : S1024x1024.Idx) (q : dSquare.contr.Idx) : (dSquare.lhsIdx o q 1).val = (q ⟨0, by decide⟩).val :=
  dSquare.lhsIdx_val_of_single rfl o q
theorem square_rhs0 (o : S1024x1024.Idx) (q : dSquare.contr.Idx) : (dSquare.rhsIdx o q 0).val = (q ⟨0, by decide⟩).val :=
  dSquare.rhsIdx_val_of_single rfl o q
theorem square_rhs1 (o : S1024x1024.Idx) (q : dSquare.contr.Idx) : (dSquare.rhsIdx o q 1).val = (o 1).val := by
  unfold DotDims.rhsIdx
  rw [dif_neg (show ¬(1 : Fin S1024x1024.rank) ∈ dSquare.rhsBatch by decide), dif_pos (show (1 : Fin S1024x1024.rank) ∈ dSquare.rhsNonContracting by decide)]
  rfl

/-- Entry (i, j) of a square product. -/
theorem matmul_square_apply {φ₁ φ₂ : FTy} (A : FVec Ideal S1024x1024 φ₁) (B : FVec Ideal S1024x1024 φ₂) (i j : Fin 1024) :
    matmul dSquare none A B (constant S1024x1024 .f32 0x00000000#32) (ix2 i j)
      = ∑ k : Fin 1024, A (ix2 i k) * B (ix2 k j) := by
  refine (Ideal.matmul_constant_zero_apply dSquare none A B (ix2 i j)).trans ?_
  rw [← Equiv.sum_comp (contrEquiv1 dSquare 1024 rfl rfl).symm]
  refine Finset.sum_congr rfl fun k _ => ?_
  have hk := contrEquiv1_symm_val dSquare 1024 rfl rfl k
  have el : dSquare.lhsIdx (ix2 i j) ((contrEquiv1 dSquare 1024 rfl rfl).symm k) = ix2 i k := funext fun a => Fin.ext (by
    match a with
    | ⟨0, _⟩ => exact square_lhs0 _ _
    | ⟨1, _⟩ => exact (square_lhs1 _ _).trans hk)
  have er : dSquare.rhsIdx (ix2 i j) ((contrEquiv1 dSquare 1024 rfl rfl).symm k) = ix2 k j := funext fun a => Fin.ext (by
    match a with
    | ⟨0, _⟩ => exact (square_rhs0 _ _).trans hk
    | ⟨1, _⟩ => exact square_rhs1 _ _)
  rw [el, er]

/-! ## The centred rows times a square matrix -/

theorem rows_lhs0 (o : S256x1024.Idx) (q : dRows.contr.Idx) : (dRows.lhsIdx o q 0).val = (o 0).val := by
  unfold DotDims.lhsIdx
  rw [dif_neg (show ¬(0 : Fin S256x1024.rank) ∈ dRows.lhsBatch by decide), dif_pos (show (0 : Fin S256x1024.rank) ∈ dRows.lhsNonContracting by decide)]
  rfl
theorem rows_lhs1 (o : S256x1024.Idx) (q : dRows.contr.Idx) : (dRows.lhsIdx o q 1).val = (q ⟨0, by decide⟩).val :=
  dRows.lhsIdx_val_of_single rfl o q
theorem rows_rhs0 (o : S256x1024.Idx) (q : dRows.contr.Idx) : (dRows.rhsIdx o q 0).val = (q ⟨0, by decide⟩).val :=
  dRows.rhsIdx_val_of_single rfl o q
theorem rows_rhs1 (o : S256x1024.Idx) (q : dRows.contr.Idx) : (dRows.rhsIdx o q 1).val = (o 1).val := by
  unfold DotDims.rhsIdx
  rw [dif_neg (show ¬(1 : Fin S1024x1024.rank) ∈ dRows.rhsBatch by decide), dif_pos (show (1 : Fin S1024x1024.rank) ∈ dRows.rhsNonContracting by decide)]
  rfl

/-- Entry (r, c) of the rows times a square matrix. -/
theorem matmul_rows_apply {φ₁ φ₂ : FTy} (A : FVec Ideal S256x1024 φ₁) (B : FVec Ideal S1024x1024 φ₂) (r : Fin 256) (c : Fin 1024) :
    matmul dRows none A B (constant S256x1024 .f32 0x00000000#32) (ix2 r c)
      = ∑ k : Fin 1024, A (ix2 r k) * B (ix2 k c) := by
  refine (Ideal.matmul_constant_zero_apply dRows none A B (ix2 r c)).trans ?_
  rw [← Equiv.sum_comp (contrEquiv1 dRows 1024 rfl rfl).symm]
  refine Finset.sum_congr rfl fun k _ => ?_
  have hk := contrEquiv1_symm_val dRows 1024 rfl rfl k
  have el : dRows.lhsIdx (ix2 r c) ((contrEquiv1 dRows 1024 rfl rfl).symm k) = ix2 r k := funext fun a => Fin.ext (by
    match a with
    | ⟨0, _⟩ => exact rows_lhs0 _ _
    | ⟨1, _⟩ => exact (rows_lhs1 _ _).trans hk)
  have er : dRows.rhsIdx (ix2 r c) ((contrEquiv1 dRows 1024 rfl rfl).symm k) = ix2 k c := funext fun a => Fin.ext (by
    match a with
    | ⟨0, _⟩ => exact (rows_rhs0 _ _).trans hk
    | ⟨1, _⟩ => exact rows_rhs1 _ _)
  rw [el, er]

end Cert.KernelIdeal.Ops

end
-- ==== Proof.KernelLayout.lean ====
/-
  The idealized kernel's layout operations and lane sums read at an index, at the extended reals.

  A sum over one axis is the sum over that axis's coordinates; a cast that appends or prepends a unit axis, and a
  broadcast along unit axes, only rename the index; the comparison of the row and column counters, selected
  between the words of 1 and 0, is the identity matrix.
-/
import proofs.«151079_j12421045420977_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Ops

open Idealize.ShloMosaic Idealize.ShloMosaic.ValueIdx Cert.KernelIdeal Cert.KernelIdeal.Gen

/-! ## Sums over one axis

Each holds for any evidence of the sum's two side conditions: that the format admits a sum, and that the
accumulator's word is the sum's neutral word. -/

/-- The sum of a `[256, 1024]` block over its columns, at row `r`. -/
theorem rowSum_apply (v : FVec Ideal S256x1024 .f32) (hφ : FTy.f32 = FTy.f32 ∨ FTy.f32 = FTy.bf16)
    (hacc : (0x00000000#32 : BitVec 32) = 0x00000000#32) (r : Fin 256) :
    multiReduction .add [1] S256 v 0x00000000#32 reduces_S256x1024_S256 hφ hacc (ix1 r)
      = ∑ c : Fin 1024, v (ix2 r c) := by
  refine (Ideal.multiReduction_add_single v 0x00000000#32 reduces_S256x1024_S256 hφ hacc (ix1 r)).trans ?_
  refine Finset.sum_congr rfl fun k _ => congrArg v (funext fun a => Fin.ext ?_)
  match a with
  | ⟨0, _⟩ => rfl
  | ⟨1, _⟩ => rfl

/-- The sum of a `[1024, 1024]` matrix over its columns, at row `i`. -/
theorem matRowSum_apply (v : FVec Ideal S1024x1024 .f32) (hφ : FTy.f32 = FTy.f32 ∨ FTy.f32 = FTy.bf16)
    (hacc : (0x00000000#32 : BitVec 32) = 0x00000000#32) (i : Fin 1024) :
    multiReduction .add [1] S1024 v 0x00000000#32 reduces_S1024x1024_S1024 hφ hacc (ix1 i)
      = ∑ j : Fin 1024, v (ix2 i j) := by
  refine (Ideal.multiReduction_add_single v 0x00000000#32 reduces_S1024x1024_S1024 hφ hacc (ix1 i)).trans ?_
  refine Finset.sum_congr rfl fun k _ => congrArg v (funext fun a => Fin.ext ?_)
  match a with
  | ⟨0, _⟩ => rfl
  | ⟨1, _⟩ => rfl

/-- The sum of a `[1024, 1]` column over its rows. -/
theorem colSum_apply (v : FVec Ideal S1024x1 .f32) (hφ : FTy.f32 = FTy.f32 ∨ FTy.f32 = FTy.bf16)
    (hacc : (0x00000000#32 : BitVec 32) = 0x00000000#32) (u : Fin 1) :
    multiReduction .add [0] S1 v 0x00000000#32 reduces_S1024x1_S1 hφ hacc (ix1 u)
      = ∑ i : Fin 1024, v (ix2 i (0 : Fin 1)) := by
  refine (Ideal.multiReduction_add_single v 0x00000000#32 reduces_S1024x1_S1 hφ hacc (ix1 u)).trans ?_
  refine Finset.sum_congr rfl fun k _ => congrArg v (funext fun a => Fin.ext ?_)
  match a with
  | ⟨0, _⟩ => rfl
  | ⟨1, _⟩ =>
    have hu := u.isLt
    show u.val = 0
    omega

/-! ## Unit axes appended, and broadcasts along them -/

/-- `[256]` cast to `[256, 1]`. -/
theorem cast_256_256x1_apply {α : Type} (x : S256.Idx → α) (r : Fin 256) (u : Fin 1) :
    shapeCast S256x1 x shapeCasts_S256_S256x1 (ix2 r u) = x (ix1 r) :=
  shapeCast_apply x shapeCasts_S256_S256x1 _ _ (by
    have hu : u.val = 0 := by omega
    rw [Shape.rowMajor_val_one, Shape.rowMajor_val_two]
    show r.val = r.val * 1 + u.val
    omega)

/-- `[1024]` cast to `[1024, 1]`. -/
theorem cast_1024_1024x1_apply {α : Type} (x : S1024.Idx → α) (i : Fin 1024) (u : Fin 1) :
    shapeCast S1024x1 x shapeCasts_S1024_S1024x1 (ix2 i u) = x (ix1 i) :=
  shapeCast_apply x shapeCasts_S1024_S1024x1 _ _ (by
    have hu : u.val = 0 := by omega
    rw [Shape.rowMajor_val_one, Shape.rowMajor_val_two]
    show i.val = i.val * 1 + u.val
    omega)

/-- `[1]` cast to `[1, 1]`. -/
theorem cast_1_1x1_apply {α : Type} (x : S1.Idx → α) (u v : Fin 1) :
    shapeCast S1x1 x shapeCasts_S1_S1x1 (ix2 u v) = x (ix1 (0 : Fin 1)) :=
  shapeCast_apply x shapeCasts_S1_S1x1 _ _ (by
    have hu : u.val = 0 := by omega
    have hv : v.val = 0 := by omega
    rw [Shape.rowMajor_val_one, Shape.rowMajor_val_two]
    show 0 = u.val * 1 + v.val
    omega)

/-- A `[256, 1]` column broadcast over the 1024 columns. -/
theorem bcast_256x1_apply {α : Type} (x : S256x1.Idx → α) (r : Fin 256) (c : Fin 1024) :
    broadcastTo S256x1024 x broadcasts_S256x1_S256x1024 (ix2 r c) = x (ix2 r (0 : Fin 1)) :=
  broadcastTo_apply x broadcasts_S256x1_S256x1024 _ _ (fun a => match a with
    | ⟨0, _⟩ => by show r.val = if (256 : Nat) = 1 then 0 else r.val; rw [if_neg (by decide)]
    | ⟨1, _⟩ => by show 0 = if (1 : Nat) = 1 then 0 else c.val; rw [if_pos rfl])

/-- A `[1, 1]` scalar broadcast over a `[256, 1024]` block. -/
theorem bcast_1x1_apply {α : Type} (x : S1x1.Idx → α) (r : Fin 256) (c : Fin 1024) :
    broadcastTo S256x1024 x broadcasts_S1x1_S256x1024 (ix2 r c) = x (ix2 (0 : Fin 1) (0 : Fin 1)) :=
  broadcastTo_apply x broadcasts_S1x1_S256x1024 _ _ (fun a => match a with
    | ⟨0, _⟩ => by show 0 = if (1 : Nat) = 1 then 0 else r.val; rw [if_pos rfl]
    | ⟨1, _⟩ => by show 0 = if (1 : Nat) = 1 then 0 else c.val; rw [if_pos rfl])

/-- The block's leading unit axis dropped. -/
theorem cast_1x256x1024_apply {α : Type} (x : S1x256x1024.Idx → α) (r : Fin 256) (c : Fin 1024) :
    shapeCast S256x1024 x shapeCasts_S1x256x1024_S256x1024 (ix2 r c) = x (ix3 (0 : Fin 1) r c) :=
  shapeCast_1ab_ab_apply x shapeCasts_S1x256x1024_S256x1024 r c

/-- The block's leading unit axis put back. -/
theorem cast_256x1024_1_apply {α : Type} (x : S256x1024.Idx → α) (u : Fin 1) (r : Fin 256) (c : Fin 1024) :
    shapeCast S1x256x1024 x shapeCasts_S256x1024_S1x256x1024 (ix3 u r c) = x (ix2 r c) :=
  shapeCast_ab_1ab_apply x shapeCasts_S256x1024_S1x256x1024 u r c

/-! ## The identity matrix from the row and column counters -/

/-- Two counters below 1024 are equal as 32-bit words exactly when they are equal. -/
theorem cmpi_eq_counters (i j : Fin 1024) :
    IntOp.cmpi .eq (BitVec.ofNat 32 i.val) (BitVec.ofNat 32 j.val) = if i = j then 1#1 else 0#1 := by
  by_cases h : i = j
  · subst h
    rw [if_pos rfl]
    simp [IntOp.cmpi]
  · rw [if_neg h]
    have hne : BitVec.ofNat 32 i.val ≠ BitVec.ofNat 32 j.val := by
      intro he
      have := congrArg BitVec.toNat he
      rw [BitVec.toNat_ofNat, BitVec.toNat_ofNat] at this
      have hi := i.isLt
      have hj := j.isLt
      exact h (Fin.ext (by omega))
    show BitVec.ofBool (BitVec.ofNat 32 i.val == BitVec.ofNat 32 j.val) = 0#1
    rw [beq_eq_false_iff_ne.mpr hne]
    rfl

/-- The comparison of the two counters, selecting between two values, at (i, j). -/
theorem select_counters_apply {α : Type} (a b : α) (i j : Fin 1024) :
    select (cmpi .eq (iota .tc S1024x1024 32 [0] iota_S1024x1024_d0_w32) (iota .tc S1024x1024 32 [1] iota_S1024x1024_d1_w32))
        (broadcast S1024x1024 a) (broadcast S1024x1024 b) (ix2 i j)
      = if i = j then a else b := by
  show Scalar.select (IntOp.cmpi .eq (iota .tc S1024x1024 32 [0] iota_S1024x1024_d0_w32 (ix2 i j))
      (iota .tc S1024x1024 32 [1] iota_S1024x1024_d1_w32 (ix2 i j))) a b = _
  rw [iota_single_apply, iota_single_apply]
  show Scalar.select (IntOp.cmpi .eq (BitVec.ofNat 32 i.val) (BitVec.ofNat 32 j.val)) a b = _
  rw [cmpi_eq_counters]
  by_cases h : i = j
  · rw [if_pos h, if_pos h]; exact select_one a b
  · rw [if_neg h, if_neg h]; exact select_zero a b

/-- The word of 1.0 is the extended real 1. -/
theorem ofBits_one_f32 : Ideal.ofBits .f32 0x3F800000#32 = 1 := by
  simp [Ideal.ofBits, Ideal.ieee, -EReal.coe_mul]
  norm_num

end Cert.KernelIdeal.Ops

end
-- ==== Proof.Spec.lean ====
/-
  The mathematics both programs compute, on the extended reals, one group of 256 rows at a time.

  For a group's rows `Z : 256 × 1024`:
    centred   Zc r c = Z r c − (Σ_k Z r k) / 1024                     (each row minus its mean)
    gram      S i j  = Σ_r Zc r i · Zc r j + ε · I i j                (the columns' Gram matrix, regularised)
    frob      n      = √(Σ_i Σ_j S i j · S i j)                       (its Frobenius norm)
    newton B S       = 3/2 · B − 1/2 · ((B·B)·B)·S                    (one Newton–Schulz step towards S^(−1/2))
    whitened  W r c  = (Zc · newton (newton I S) S) r c / √n          (two steps from the identity, then the scaling)

  The first step starts from the identity matrix, and on the extended reals `I·A = A` holds for EVERY matrix `A`,
  infinite entries included: `0 · x = 0` and `1 · x = x` for every extended real `x`, and a sum whose terms are all
  zero but one is that one (`eye_mm`). So `newton I S = 3/2 · I − 1/2 · S` exactly (`newton_eye`): a program that
  forms the three products with the identity and a program that skips them compute the same matrix, with no
  finiteness assumption.

  The four float literals (1024, ε, 3/2, 1/2) are kept as their words: the same word is on both sides and is
  never evaluated.
-/
import Idealize.ShloMosaic.PureOps.Ideal
import Idealize.ShloMosaic.Lib.ValueIdx

noncomputable section

namespace Cert.Whiten

open Idealize.ShloMosaic Idealize.ShloMosaic.ValueIdx

/-- The row length 1024 as the program's word. -/
abbrev wLen : EReal := Ideal.ofBits .f32 0x44800000#32
/-- The regulariser ε as the program's word. -/
abbrev wEps : EReal := Ideal.ofBits .f32 0x3727C5AC#32
/-- 3/2 as the program's word. -/
abbrev wThreeHalves : EReal := Ideal.ofBits .f32 0x3FC00000#32
/-- 1/2 as the program's word. -/
abbrev wHalf : EReal := Ideal.ofBits .f32 0x3F000000#32

/-- The identity matrix of order 1024. -/
def eye (i j : Fin 1024) : EReal := if i = j then 1 else 0

/-- The product of two matrices of extended reals. -/
def mm {n p q : Nat} (A : Fin n → Fin p → EReal) (B : Fin p → Fin q → EReal) (i : Fin n) (j : Fin q) : EReal :=
  ∑ k : Fin p, A i k * B k j

/-- The identity is a left unit for the product, whatever the other matrix's entries: row `i` of the identity
    picks out row `i`, every other term being `0 · x = 0`. -/
theorem eye_mm {q : Nat} (A : Fin 1024 → Fin q → EReal) : mm eye A = A := by
  funext i j
  unfold mm eye
  rw [Finset.sum_eq_single i]
  · rw [if_pos rfl, one_mul]
  · intro k _ hk
    rw [if_neg (Ne.symm hk), zero_mul]
  · intro h
    exact absurd (Finset.mem_univ i) h

/-- One Newton–Schulz step. -/
def newton (B S : Fin 1024 → Fin 1024 → EReal) (i j : Fin 1024) : EReal :=
  wThreeHalves * B i j - wHalf * mm (mm (mm B B) B) S i j

/-- From the identity the step needs no product: `((I·I)·I)·S = S`. -/
theorem newton_eye (S : Fin 1024 → Fin 1024 → EReal) :
    newton eye S = fun i j => wThreeHalves * eye i j - wHalf * S i j := by
  funext i j
  unfold newton
  rw [eye_mm, eye_mm, eye_mm]

section group

variable (Z : Fin 256 → Fin 1024 → EReal)

/-- A row minus its mean. -/
def centred (r : Fin 256) (c : Fin 1024) : EReal := Z r c - Ideal.div (∑ k : Fin 1024, Z r k) wLen

/-- The Gram matrix of the centred columns, plus ε on the diagonal. -/
def gram (i j : Fin 1024) : EReal := (∑ r : Fin 256, centred Z r i * centred Z r j) + wEps * eye i j

/-- The Gram matrix's Frobenius norm. -/
def frob : EReal := Ideal.sqrt (∑ i : Fin 1024, ∑ j : Fin 1024, gram Z i j * gram Z i j)

/-- The first step from the identity, in the form that needs no product. -/
def first (i j : Fin 1024) : EReal := wThreeHalves * eye i j - wHalf * gram Z i j

theorem first_eq : first Z = newton eye (gram Z) := (newton_eye (gram Z)).symm

/-- The group's result: the centred rows times the second iterate, over the root of the norm. -/
def whitened (r : Fin 256) (c : Fin 1024) : EReal :=
  Ideal.div (mm (centred Z) (newton (first Z) (gram Z)) r c) (Ideal.sqrt (frob Z))

end group

/-- Group `g`'s rows of a `[32, 256, 1024]` array. -/
def slab (X : (⟨3, ![32, 256, 1024]⟩ : Shape).Idx → EReal) (g : Fin 32) : Fin 256 → Fin 1024 → EReal :=
  fun r c => X (ix3 g r c)

/-- The whole result as one function of the `[32, 256, 1024]` array: group by group. -/
def whitenAll (X : (⟨3, ![32, 256, 1024]⟩ : Shape).Idx → EReal) : (⟨3, ![32, 256, 1024]⟩ : Shape).Idx → EReal :=
  fun j => whitened (slab X (j 0)) (j 1) (j 2)

theorem whitenAll_ix3 (X : (⟨3, ![32, 256, 1024]⟩ : Shape).Idx → EReal) (g : Fin 32) (r : Fin 256) (c : Fin 1024) :
    whitenAll X (ix3 g r c) = whitened (slab X g) r c := rfl

end Cert.Whiten

end
-- ==== Proof.KernelBody.lean ====
/-
  The idealized kernel's body, payload by payload, is the group's mathematics of the specification.

  With `Z r c` the block's entry (0, r, c): the second payload is the centred rows, the third the identity matrix,
  the fourth the regularised Gram matrix, the fifth the root of the sum of its squares, the sixth the first
  Newton–Schulz iterate in its product-free form 3/2·I − 1/2·S, the seventh and eighth the two halves of the
  second iterate, and the stored value the centred rows times that iterate over the root of the norm.
-/
import proofs.«151079_j12421045420977_2_alg».proof.Proof.Gen.KernelIdeal.Skeleton
import proofs.«151079_j12421045420977_2_alg».proof.Proof.KernelMatmul
import proofs.«151079_j12421045420977_2_alg».proof.Proof.KernelLayout
import proofs.«151079_j12421045420977_2_alg».proof.Proof.Spec

noncomputable section

namespace Cert.KernelIdeal.Body

open Idealize.ShloMosaic Idealize.ShloMosaic.ValueIdx Cert.KernelIdeal Cert.KernelIdeal.Gen Cert.KernelIdeal.Ops Cert.Whiten

/-- The rows of a `[1, 256, 1024]` block. -/
def rowsOf (v0 : Vec Ideal S1x256x1024 .f32) : Fin 256 → Fin 1024 → EReal := fun r c => v0 (ix3 (0 : Fin 1) r c)

/-- A vector's square root at an index. -/
theorem sqrt_apply {s : Shape} {φ : FTy} (x : FVec Ideal s φ) (i : s.Idx) : sqrt x i = Ideal.sqrt (x i) := rfl

/-- The centred rows. -/
theorem pay2_apply (v0 : Vec Ideal S1x256x1024 .f32) (r : Fin 256) (c : Fin 1024) :
    k0_pay2 (F := Ideal) v0 (ix2 r c) = centred (rowsOf v0) r c := by
  unfold k0_pay2
  simp only [truncf_apply, subf_apply, bcast_256x1_apply, divf_apply, cast_256_256x1_apply,
    cast_1x256x1024_apply, broadcast_apply]
  rw [rowSum_apply]
  simp only [cast_1x256x1024_apply]
  rfl

/-- The identity matrix. -/
theorem pay3_apply (i j : Fin 1024) : k0_pay3 (F := Ideal) (ix2 i j) = eye i j := by
  unfold k0_pay3
  refine (select_counters_apply _ _ i j).trans ?_
  show (if i = j then Ideal.ofBits .f32 0x3F800000#32 else Ideal.ofBits .f32 0x00000000#32) = if i = j then 1 else 0
  rw [ofBits_one_f32, Ideal.ofBits_zero_f32]

/-- The regularised Gram matrix. -/
theorem pay4_apply (v0 : Vec Ideal S1x256x1024 .f32) (i j : Fin 1024) :
    k0_pay4 (F := Ideal) v0 (ix2 i j) = gram (rowsOf v0) i j := by
  unfold k0_pay4
  simp only [addf_apply, mulf_apply, broadcast_apply, matmul_gram_apply, pay2_apply, pay3_apply]
  rfl

/-- The Frobenius norm. -/
theorem pay5_apply (v0 : Vec Ideal S1x256x1024 .f32) (u v : Fin 1) :
    k0_pay5 (F := Ideal) v0 (ix2 u v) = frob (rowsOf v0) := by
  unfold k0_pay5
  simp only [sqrt_apply, cast_1_1x1_apply]
  rw [colSum_apply]
  refine congrArg Ideal.sqrt (Finset.sum_congr rfl fun i _ => ?_)
  rw [cast_1024_1024x1_apply, matRowSum_apply]
  simp only [mulf_apply, pay4_apply]

/-- The first iterate, formed without a product. -/
theorem pay6_apply (v0 : Vec Ideal S1x256x1024 .f32) (i j : Fin 1024) :
    k0_pay6 (F := Ideal) v0 (ix2 i j) = first (rowsOf v0) i j := by
  unfold k0_pay6
  simp only [subf_apply, mulf_apply, broadcast_apply, pay3_apply, pay4_apply]
  rfl

/-- Three halves of the first iterate. -/
theorem pay7_apply (v0 : Vec Ideal S1x256x1024 .f32) (i j : Fin 1024) :
    k0_pay7 (F := Ideal) v0 (ix2 i j) = wThreeHalves * first (rowsOf v0) i j := by
  unfold k0_pay7
  simp only [mulf_apply, broadcast_apply, pay6_apply]
  rfl

/-- Half of the first iterate's cube times the Gram matrix. -/
theorem pay8_apply (v0 : Vec Ideal S1x256x1024 .f32) (i j : Fin 1024) :
    k0_pay8 (F := Ideal) v0 (ix2 i j)
      = wHalf * mm (mm (mm (first (rowsOf v0)) (first (rowsOf v0))) (first (rowsOf v0))) (gram (rowsOf v0)) i j := by
  unfold k0_pay8
  simp only [mulf_apply, broadcast_apply, matmul_square_apply, truncf_apply, pay6_apply, pay4_apply]
  rfl

/-- The stored block: the group's result. -/
theorem pay1_apply (v0 : Vec Ideal S1x256x1024 .f32) (u : Fin 1) (r : Fin 256) (c : Fin 1024) :
    k0_pay1 (F := Ideal) (k0_pay2 v0) (k0_pay5 v0) (k0_pay7 v0) (k0_pay8 v0) (ix3 u r c) = whitened (rowsOf v0) r c := by
  unfold k0_pay1
  simp only [cast_256x1024_1_apply, divf_apply, matmul_rows_apply, truncf_apply, subf_apply, bcast_1x1_apply, sqrt_apply,
    pay2_apply, pay5_apply, pay7_apply, pay8_apply]
  rfl

end Cert.KernelIdeal.Body

end
-- ==== Proof.KernelValue.lean ====
/-
  What the idealized kernel's program leaves in its result, as one function of its argument.

  The program reshapes the `[8192, 1024]` argument to `[32, 256, 1024]`, runs the body once per group — point `t`
  of the grid reads block `t` (group `t`'s 256 rows) and writes block `t` of the output —, and reshapes the
  output back. Block `t` of the input is the array read at (t, r, c); what point `t` writes back is block `t` of
  the whole-array function `whitenAll` of the specification; the 32 blocks tile the output, so the output IS
  `whitenAll` of the reshaped argument; the last reshape is applied to that.
-/
import proofs.«151079_j12421045420977_2_alg».proof.Proof.Gen.KernelIdeal.Frame
import proofs.«151079_j12421045420977_2_alg».proof.Proof.KernelBody
import Idealize.ShloMosaic.Lib.Pipeline.Value
import Idealize.ShloMosaic.Lib.StableHlo.Run

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Body Cert.Whiten
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The body's one store covers its buffer at offset zero: what it leaves is its payload of the loaded block. -/
theorem out_eq (x0 : Vec Ideal S1x256x1024 .f32) :
    out0_1 x0 = k0_pay1 (k0_pay2 x0) (k0_pay5 x0) (k0_pay7 x0) (k0_pay8 x0) := by
  unfold out0_1
  rw [View.canon_unit_zero zero_offsets]
  simp only [View.ld_unit_zero (S := S1x256x1024) zero_offsets]

/-- The block's value at an index is the specification's at the array index it is written to: for a block whose
    rows are group `g`'s rows of `X`, the entry at block index `y` is `whitenAll X` at (g, y 1, y 2). -/
theorem block_value (x0 : Vec Ideal S1x256x1024 .f32) (X : S32x256x1024.Idx → EReal) (g : Fin 32)
    (hx : ∀ (r : Fin 256) (c : Fin 1024), x0 (ix3 (0 : Fin 1) r c) = X (ix3 g r c))
    (y : S1x256x1024.Idx) (i : S32x256x1024.Idx)
    (h0 : (i 0).val = g.val) (h1 : (i 1).val = (y 1).val) (h2 : (i 2).val = (y 2).val) :
    k0_pay1 (k0_pay2 x0) (k0_pay5 x0) (k0_pay7 x0) (k0_pay8 x0) y = whitenAll X i := by
  obtain ⟨u, r, c, rfl⟩ : ∃ (u : Fin 1) (r : Fin 256) (c : Fin 1024), y = ix3 u r c := ⟨y 0, y 1, y 2, eq_ix3 y⟩
  have hi : i = ix3 g r c := funext fun a => Fin.ext (by
    match a with
    | ⟨0, _⟩ => exact h0
    | ⟨1, _⟩ => exact h1
    | ⟨2, _⟩ => exact h2)
  rw [hi, pay1_apply, whitenAll_ix3]
  have hrows : rowsOf x0 = slab X g := funext fun r => funext fun c => hx r c
  rw [hrows]

/-- The printed index maps over the grid: both windows' block at point `t` is block (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point `t` holds group `t`'s rows of the array the region finds. -/
theorem iblk_apply (c : Dev nD) (t : Fin cfg0.N) (g : Fin 32) (hg : g.val = t.val) (r : Fin 256) (cc : Fin 1024) :
    iblk m c 0 t (ix3 (0 : Fin 1) r cc) = V m c main_v0 (ix3 g r cc) := by
  obtain ⟨e0, e1, e2, -, -, -⟩ := idx_facts t
  show V m c main_v0 (((cfg0.win 0).blk t).view.emb (ix3 (0 : Fin 1) r cc)) = V m c main_v0 (ix3 g r cc)
  refine congrArg (V m c main_v0) (funext fun a => Fin.ext ?_)
  match a with
  | ⟨0, _⟩ =>
    show win0_0.index t (0 : Fin 3) * 1 + 1 * 0 = g.val
    omega
  | ⟨1, _⟩ =>
    show win0_0.index t (1 : Fin 3) * 256 + 1 * r.val = r.val
    omega
  | ⟨2, _⟩ =>
    show win0_0.index t (2 : Fin 3) * 1024 + 1 * cc.val = cc.val
    omega

/-- WHAT POINT `t` WRITES BACK is block `t` of the specification's function of the array the region finds. -/
theorem flushed_eq (c : Dev nD) (t : Fin cfg0.N) :
    (dats m 0 c).flushed 1 t = ((cfg0.win 1).blk t).view.read (Elt Ideal) (whitenAll (V m c main_v0)) := by
  show (cfg0.win 1).cut (grid0.coords t) ((dats m 0 c).after 1 t) = _
  rw [after0_1, out_eq]
  obtain ⟨-, -, -, e0, e1, e2⟩ := idx_facts t
  have ht : t.val < 32 := by
    have h := t.isLt
    have hN : cfg0.N = 32 := N_0
    omega
  funext y
  show k0_pay1 (k0_pay2 (iblk m c 0 t)) (k0_pay5 (iblk m c 0 t)) (k0_pay7 (iblk m c 0 t)) (k0_pay8 (iblk m c 0 t)) y
    = whitenAll (V m c main_v0) (((cfg0.win 1).blk t).view.emb y)
  refine block_value (iblk m c 0 t) (V m c main_v0) ⟨t.val, ht⟩ (fun r cc => iblk_apply m c t ⟨t.val, ht⟩ rfl r cc) y _ ?_ ?_ ?_
  · show win0_1.index t (0 : Fin 3) * 1 + 1 * (y 0).val = t.val
    have hy : (y 0).val < 1 := (y 0).isLt
    omega
  · show win0_1.index t (1 : Fin 3) * 256 + 1 * (y 1).val = (y 1).val
    omega
  · show win0_1.index t (2 : Fin 3) * 1024 + 1 * (y 2).val = (y 2).val
    omega

/-- An index of the output is in point `t`'s block iff each coordinate is in the block's range on its axis. -/
theorem mem_blk (t : Fin cfg0.N) (i : S32x256x1024.Idx) :
    i ∈ ((cfg0.win 1).blk t).view.set ↔ ∀ a : Fin 3, win0_1.index t a * S1x256x1024.size a ≤ (i a).val
      ∧ (i a).val < win0_1.index t a * S1x256x1024.size a + S1x256x1024.size a := by
  show i ∈ ((View.whole main_v1).slice (win0_1.rect t)).set ↔ _
  rw [View.set_slice_whole, Rect.mem_set_unit]
  exact Iff.rfl

/-- The 32 blocks tile the output: index (g, r, c) is in the block of point `g`. -/
theorem cover (i : S32x256x1024.Idx) :
    ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 1024 := (i 2).isLt
  have hlt : (i 0).val < cfg0.N := lt_of_lt_of_eq hi0 (N_0.symm : (32 : Nat) = cfg0.N)
  refine ⟨⟨(i 0).val, hlt⟩, flush0_1 _, ?_⟩
  rw [mem_blk]
  obtain ⟨-, -, -, e0, e1, e2⟩ := idx_facts ⟨(i 0).val, hlt⟩
  have e0' : win0_1.index ⟨(i 0).val, hlt⟩ (0 : Fin 3) = (i 0).val := e0
  intro a
  match a with
  | ⟨0, _⟩ =>
    show win0_1.index ⟨(i 0).val, hlt⟩ (0 : Fin 3) * 1 ≤ (i 0).val ∧ (i 0).val < win0_1.index ⟨(i 0).val, hlt⟩ (0 : Fin 3) * 1 + 1
    omega
  | ⟨1, _⟩ =>
    show win0_1.index ⟨(i 0).val, hlt⟩ (1 : Fin 3) * 256 ≤ (i 1).val ∧ (i 1).val < win0_1.index ⟨(i 0).val, hlt⟩ (1 : Fin 3) * 256 + 256
    omega
  | ⟨2, _⟩ =>
    show win0_1.index ⟨(i 0).val, hlt⟩ (2 : Fin 3) * 1024 ≤ (i 2).val ∧ (i 2).val < win0_1.index ⟨(i 0).val, hlt⟩ (2 : Fin 3) * 1024 + 1024
    omega

/-- THE OUTPUT ARRAY after the run is the specification's function of the array the region finds. -/
theorem final (c : Dev nD) : (dats m 0 c).arrAt 1 cfg0.N = whitenAll (V m c main_v0) :=
  (dats m 0 c).arrAt_eq_of_cover 1 (whitenAll (V m c main_v0)) (fun t _ => flushed_eq m c t) cover

/-- The array the region finds is the argument reshaped. -/
theorem V_main_v0 (c : Dev nD) :
    (V m c main_v0 : S32x256x1024.Idx → EReal)
      = shapeCast S32x256x1024 (m ((c : Thread nD τ).loc main_arg0)) shapeCasts_S8192x1024_S32x256x1024 := by
  show StableHlo.after hostOps0 (fun b => m (c, b)) (Proc.devRef .tc main_v0) = _
  after_results
  rfl

/-- The program's result: the output array reshaped. -/
theorem tail_value (c : Dev nD) :
    Pipeline.afterTail₀ cfgs (dats m) 0 (V0 m) [hostOps1] c main_v2
      = shapeCast S8192x1024 (whitenAll (V m c main_v0)) shapeCasts_S32x256x1024_S8192x1024 := by
  unfold Pipeline.afterTail₀
  show StableHlo.after hostOps1 _ (Proc.devRef .tc main_v2) = _
  after_results
  rw [(Pipeline.withArrays_arr spec0 launch0.win.arr_inj c _ _ 1).trans (final m c)]
  rfl

/-- The idealized kernel's run: the result is the specification's function of the argument, reshaped there and
    back, and the argument is unchanged. -/
theorem run : θ_run defs (onTc (τ := τ) (main (F := Ideal))) ⟨m, fun _ => 0, ρ⟩ fun r => ∀ c : Dev nD,
      r.2.mem ((c.tc : Thread nD τ).loc main_v2)
        = shapeCast S8192x1024 (whitenAll (shapeCast S32x256x1024 (m ((c.tc : Thread nD τ).loc main_arg0))
            shapeCasts_S8192x1024_S32x256x1024)) shapeCasts_S32x256x1024_S8192x1024
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans
        ((tail_value m c).trans (by rw [V_main_v0])),
      ((h c).2 main_arg0 (Pipeline.mem_restRefs_of main_arg0 (by decide) (by decide))).trans (W_main_arg0 m (dats m) c)⟩)
    (run_main m ρ)

end Cert.KernelIdeal.KernelValue

end
-- ==== Proof.RefValue.lean ====
/-
  The reference program's value, stage by stage, on the extended reals.

  Writing X for the argument reshaped to [32, 256, 1024] and Z = slab X g for group g's 256 rows, each stage is read at
  explicit coordinates: the centred rows (centred Z), the identity matrix from the comparison of the two coordinate
  words (eye), the regularised Gram matrix (gram Z), its Frobenius norm (frob Z; the sum over the two matrix axes of a
  [32, 1024, 1024] array is re-indexed as the double sum over the group's entries), the three products with the identity
  that the first Newton–Schulz step forms (each is the other factor, by eye_mm), the first iterate (first Z), the second
  (newton (first Z) (gram Z)), and the result, the centred rows times the second iterate over the root of the norm
  (whitened Z). Together: the value before the last reshape is whitenAll X.
-/
import proofs.«151079_j12421045420977_2_alg».proof.Proof.Gen.ReferenceIdeal.Read
import proofs.«151079_j12421045420977_2_alg».proof.Proof.Spec

noncomputable section

namespace Cert.ReferenceIdeal.RefValue

open Idealize.ShloMosaic Idealize.ShloMosaic.ValueIdx Cert.ReferenceIdeal Cert.ReferenceIdeal.Read Cert.Whiten

/-- The centred rows: each row minus its mean, which is the row's sum divided by 1024. -/
theorem v6_at (x0 : (⟨S8192x1024, .f32⟩ : BufTy).Contents (Elt Ideal)) (g : Fin 32) (r : Fin 256) (c : Fin 1024) :
    val_main_v6 (F := Ideal) x0 (ix3 g r c) = centred (slab (val_main_v0 (F := Ideal) x0) g) r c := by
  rw [val_main_v6_apply, val_main_v5_apply, val_main_v4_apply, val_main_v2_apply, val_main_v1_apply, val_main_v3_apply,
    val_main_cst_apply, val_main_cst_0_apply]
  have hk : ∀ k : Fin 1024, idx_main_v1 (idx_main_v2 (idx_main_v5 (ix3 g r c))) k = ix3 g r k := fun k =>
    funext fun a => Fin.ext (by match a with | ⟨0, _⟩ => rfl | ⟨1, _⟩ => rfl | ⟨2, _⟩ => rfl)
  simp only [hk]
  show _ - Ideal.div (Ideal.ofBits .f32 0x00000000#32 + _) _ = _
  rw [Ideal.ofBits_zero_f32, zero_add]
  rfl

/-- The identity's word: the comparison of two coordinates' 32-bit words, converted, is the identity matrix's entry. -/
theorem eye_word (i j : Fin 1024) :
    FloatOps.uitofp (F := Ideal) .f32 (IntOp.cmpi .eq (IntOp.addi (BitVec.ofNat 32 i.val) 0#32) (BitVec.ofNat 32 j.val))
      = eye i j := by
  have h0 : IntOp.addi (BitVec.ofNat 32 i.val) 0#32 = BitVec.ofNat 32 i.val := by
    show BitVec.ofNat 32 i.val + 0#32 = _
    exact BitVec.add_zero _
  rw [h0]
  unfold eye
  by_cases h : i = j
  · subst h
    rw [if_pos rfl]
    have h1 : IntOp.cmpi .eq (BitVec.ofNat 32 i.val) (BitVec.ofNat 32 i.val) = 1#1 := by
      simp [IntOp.cmpi]
    rw [h1]
    show (((1#1 : BitVec 1).toNat : ℝ) : EReal) = 1
    simp
  · rw [if_neg h]
    have hne : BitVec.ofNat 32 i.val ≠ BitVec.ofNat 32 j.val := by
      intro he
      apply h
      have h2 := congrArg BitVec.toNat he
      simp only [BitVec.toNat_ofNat] at h2
      apply Fin.ext
      have := i.isLt
      have := j.isLt
      omega
    have h1 : IntOp.cmpi .eq (BitVec.ofNat 32 i.val) (BitVec.ofNat 32 j.val) = 0#1 := by
      show BitVec.ofBool (BitVec.ofNat 32 i.val == BitVec.ofNat 32 j.val) = 0#1
      rw [beq_eq_false_iff_ne.mpr hne]
      rfl
    rw [h1]
    show (((0#1 : BitVec 1).toNat : ℝ) : EReal) = 0
    simp

/-- The first identity matrix the program builds. -/
theorem v13_at (i j : Fin 1024) : val_main_v13 (F := Ideal) (ix2 i j) = eye i j := by
  rw [val_main_v13_apply, val_main_v12_apply, val_main_v11_apply, val_main_v8_apply, val_main_v9_apply,
    val_main_v10_apply, val_main_c_apply]
  exact eye_word i j

/-- The second identity matrix the program builds. -/
theorem v28_at (i j : Fin 1024) : val_main_v28 (F := Ideal) (ix2 i j) = eye i j := by
  rw [val_main_v28_apply, val_main_v27_apply, val_main_v26_apply, val_main_v23_apply, val_main_v24_apply,
    val_main_v25_apply, val_main_c_3_apply]
  exact eye_word i j

/-- The regularised Gram matrix of a group's centred columns. -/
theorem v18_at (x0 : (⟨S8192x1024, .f32⟩ : BufTy).Contents (Elt Ideal)) (g : Fin 32) (i j : Fin 1024) :
    val_main_v18 (F := Ideal) x0 (ix3 g i j) = gram (slab (val_main_v0 (F := Ideal) x0) g) i j := by
  rw [val_main_v18_apply, val_main_v7_apply, val_main_v17_apply, val_main_v16_apply, val_main_v15_apply,
    val_main_v14_apply, val_main_cst_1_apply]
  have hl : ∀ k : Fin 256, lidx_main_v7 (ix3 g i j) k = ix3 g k i := fun k =>
    funext fun a => Fin.ext (by match a with | ⟨0, _⟩ => rfl | ⟨1, _⟩ => rfl | ⟨2, _⟩ => rfl)
  have hr : ∀ k : Fin 256, ridx_main_v7 (ix3 g i j) k = ix3 g k j := fun k =>
    funext fun a => Fin.ext (by match a with | ⟨0, _⟩ => rfl | ⟨1, _⟩ => rfl | ⟨2, _⟩ => rfl)
  have he : idx_main_v16 (idx_main_v17 (ix3 g i j)) = ix2 i j :=
    funext fun a => Fin.ext (by match a with | ⟨0, _⟩ => rfl | ⟨1, _⟩ => rfl)
  simp only [hl, hr, he, v6_at, v13_at]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the two matrix axes of an index leaves its group. -/
theorem drop_ix3 (a : Fin 32) (b c : Fin 1024) :
    Gen.reducesTo_S32x1024x1024_S32_d1_2.drop (ix3 a b c) = ix1 a := by
  funext d
  match d with
  | ⟨0, _⟩ => exact Fin.ext (Shape.ReducesTo.drop_apply_val_of_eq Gen.reducesTo_S32x1024x1024_S32_d1_2 (ix3 a b c) 0 0)

/-- The sum over the two matrix axes, group by group: the double sum over the group's entries. -/
theorem v20_at (x0 : (⟨S8192x1024, .f32⟩ : BufTy).Contents (Elt Ideal)) (g : Fin 32) :
    val_main_v20 (F := Ideal) x0 (ix1 g)
      = ∑ a : Fin 1024, ∑ b : Fin 1024, val_main_v19 (F := Ideal) x0 (ix3 g a b) := by
  unfold val_main_v20
  generalize val_main_v19 (F := Ideal) x0 = y
  simp only [Host.reduceAdd, Ideal.hostReduceAdd_def]
  unfold Ideal.hostReduceAdd
  rw [val_main_cst_2_apply]
  show Ideal.ofBits .f32 0x00000000#32 + _ = _
  rw [Ideal.ofBits_zero_f32, zero_add, Finset.sum_filter, sum_idx3, Finset.sum_eq_single g]
  · refine Finset.sum_congr rfl fun a _ => Finset.sum_congr rfl fun b _ => ?_
    rw [if_pos (drop_ix3 g a b)]
  · intro a _ ha
    refine Finset.sum_eq_zero fun b _ => Finset.sum_eq_zero fun c _ => ?_
    rw [if_neg]
    rw [drop_ix3]
    intro he
    exact ha (congrFun he 0)
  · intro h
    exact absurd (Finset.mem_univ g) h

/-- The Frobenius norm of a group's Gram matrix. -/
theorem v22_at (x0 : (⟨S8192x1024, .f32⟩ : BufTy).Contents (Elt Ideal)) (g : Fin 32) :
    val_main_v22 (F := Ideal) x0 (ix3 g (0 : Fin 1) (0 : Fin 1)) = frob (slab (val_main_v0 (F := Ideal) x0) g) := by
  rw [val_main_v22_apply, val_main_v21_apply]
  have he : idx_main_v21 (ix3 g (0 : Fin 1) (0 : Fin 1)) = ix1 g :=
    funext fun a => Fin.ext (by match a with | ⟨0, _⟩ => rfl)
  rw [he, v20_at]
  simp only [val_main_v19_apply, v18_at]
  rfl

/-- The identity matrix, copied to every group. -/
theorem v29_at (g : Fin 32) (i j : Fin 1024) : val_main_v29 (F := Ideal) (ix3 g i j) = eye i j := by
  rw [val_main_v29_apply]
  have he : idx_main_v29 (ix3 g i j) = ix2 i j :=
    funext fun a => Fin.ext (by match a with | ⟨0, _⟩ => rfl | ⟨1, _⟩ => rfl)
  rw [he, v28_at]

/-! In group g, a batched matrix product's entry (i, j) pairs entry (i, k) of the left factor with entry (k, j) of
    the right one. -/
theorem lidx_v30 (g : Fin 32) (i j k : Fin 1024) : lidx_main_v30 (ix3 g i j) k = ix3 g i k :=
  funext fun a => Fin.ext (by match a with | ⟨0, _⟩ => rfl | ⟨1, _⟩ => rfl | ⟨2, _⟩ => rfl)
theorem ridx_v30 (g : Fin 32) (i j k : Fin 1024) : ridx_main_v30 (ix3 g i j) k = ix3 g k j :=
  funext fun a => Fin.ext (by match a with | ⟨0, _⟩ => rfl | ⟨1, _⟩ => rfl | ⟨2, _⟩ => rfl)
theorem lidx_v31 (g : Fin 32) (i j k : Fin 1024) : lidx_main_v31 (ix3 g i j) k = ix3 g i k :=
  funext fun a => Fin.ext (by match a with | ⟨0, _⟩ => rfl | ⟨1, _⟩ => rfl | ⟨2, _⟩ => rfl)
theorem ridx_v31 (g : Fin 32) (i j k : Fin 1024) : ridx_main_v31 (ix3 g i j) k = ix3 g k j :=
  funext fun a => Fin.ext (by match a with | ⟨0, _⟩ => rfl | ⟨1, _⟩ => rfl | ⟨2, _⟩ => rfl)
theorem lidx_v34 (g : Fin 32) (i j k : Fin 1024) : lidx_main_v34 (ix3 g i j) k = ix3 g i k :=
  funext fun a => Fin.ext (by match a with | ⟨0, _⟩ => rfl | ⟨1, _⟩ => rfl | ⟨2, _⟩ => rfl)
theorem ridx_v34 (g : Fin 32) (i j k : Fin 1024) : ridx_main_v34 (ix3 g i j) k = ix3 g k j :=
  funext fun a => Fin.ext (by match a with | ⟨0, _⟩ => rfl | ⟨1, _⟩ => rfl | ⟨2, _⟩ => rfl)
theorem lidx_v38 (g : Fin 32) (i j k : Fin 1024) : lidx_main_v38 (ix3 g i j) k = ix3 g i k :=
  funext fun a => Fin.ext (by match a with | ⟨0, _⟩ => rfl | ⟨1, _⟩ => rfl | ⟨2, _⟩ => rfl)
theorem ridx_v38 (g : Fin 32) (i j k : Fin 1024) : ridx_main_v38 (ix3 g i j) k = ix3 g k j :=
  funext fun a => Fin.ext (by match a with | ⟨0, _⟩ => rfl | ⟨1, _⟩ => rfl | ⟨2, _⟩ => rfl)
theorem lidx_v39 (g : Fin 32) (i j k : Fin 1024) : lidx_main_v39 (ix3 g i j) k = ix3 g i k :=
  funext fun a => Fin.ext (by match a with | ⟨0, _⟩ => rfl | ⟨1, _⟩ => rfl | ⟨2, _⟩ => rfl)
theorem ridx_v39 (g : Fin 32) (i j k : Fin 1024) : ridx_main_v39 (ix3 g i j) k = ix3 g k j :=
  funext fun a => Fin.ext (by match a with | ⟨0, _⟩ => rfl | ⟨1, _⟩ => rfl | ⟨2, _⟩ => rfl)
theorem lidx_v42 (g : Fin 32) (i j k : Fin 1024) : lidx_main_v42 (ix3 g i j) k = ix3 g i k :=
  funext fun a => Fin.ext (by match a with | ⟨0, _⟩ => rfl | ⟨1, _⟩ => rfl | ⟨2, _⟩ => rfl)
theorem ridx_v42 (g : Fin 32) (i j k : Fin 1024) : ridx_main_v42 (ix3 g i j) k = ix3 g k j :=
  funext fun a => Fin.ext (by match a with | ⟨0, _⟩ => rfl | ⟨1, _⟩ => rfl | ⟨2, _⟩ => rfl)
theorem lidx_v46 (g : Fin 32) (r : Fin 256) (c k : Fin 1024) : lidx_main_v46 (ix3 g r c) k = ix3 g r k :=
  funext fun a => Fin.ext (by match a with | ⟨0, _⟩ => rfl | ⟨1, _⟩ => rfl | ⟨2, _⟩ => rfl)
theorem ridx_v46 (g : Fin 32) (r : Fin 256) (c k : Fin 1024) : ridx_main_v46 (ix3 g r c) k = ix3 g k c :=
  funext fun a => Fin.ext (by match a with | ⟨0, _⟩ => rfl | ⟨1, _⟩ => rfl | ⟨2, _⟩ => rfl)

/-- The identity times the identity is the identity. -/
theorem v30_at (g : Fin 32) (i j : Fin 1024) : val_main_v30 (F := Ideal) (ix3 g i j) = eye i j := by
  rw [val_main_v30_apply]
  simp only [lidx_v30, ridx_v30, v29_at]
  exact congrFun (congrFun (eye_mm eye) i) j

/-- … and once more. -/
theorem v31_at (g : Fin 32) (i j : Fin 1024) : val_main_v31 (F := Ideal) (ix3 g i j) = eye i j := by
  rw [val_main_v31_apply]
  simp only [lidx_v31, ridx_v31, v30_at, v29_at]
  exact congrFun (congrFun (eye_mm eye) i) j

/-- The identity times the Gram matrix is the Gram matrix. -/
theorem v34_at (x0 : (⟨S8192x1024, .f32⟩ : BufTy).Contents (Elt Ideal)) (g : Fin 32) (i j : Fin 1024) :
    val_main_v34 (F := Ideal) x0 (ix3 g i j) = gram (slab (val_main_v0 (F := Ideal) x0) g) i j := by
  rw [val_main_v34_apply]
  simp only [lidx_v34, ridx_v34, v31_at, v18_at]
  exact congrFun (congrFun (eye_mm (gram (slab (val_main_v0 (F := Ideal) x0) g))) i) j

/-- The first Newton–Schulz iterate. -/
theorem v37_at (x0 : (⟨S8192x1024, .f32⟩ : BufTy).Contents (Elt Ideal)) (g : Fin 32) (i j : Fin 1024) :
    val_main_v37 (F := Ideal) x0 (ix3 g i j) = first (slab (val_main_v0 (F := Ideal) x0) g) i j := by
  rw [val_main_v37_apply, val_main_v33_apply, val_main_v36_apply, val_main_v32_apply, val_main_v35_apply,
    val_main_cst_4_apply, val_main_cst_5_apply, v29_at, v34_at]
  rfl

/-- The first iterate's square … -/
theorem v38_at (x0 : (⟨S8192x1024, .f32⟩ : BufTy).Contents (Elt Ideal)) (g : Fin 32) (i j : Fin 1024) :
    val_main_v38 (F := Ideal) x0 (ix3 g i j) = mm (first (slab (val_main_v0 (F := Ideal) x0) g)) (first (slab (val_main_v0 (F := Ideal) x0) g)) i j := by
  rw [val_main_v38_apply]
  simp only [lidx_v38, ridx_v38, v37_at]
  rfl

/-- … its cube … -/
theorem v39_at (x0 : (⟨S8192x1024, .f32⟩ : BufTy).Contents (Elt Ideal)) (g : Fin 32) (i j : Fin 1024) :
    val_main_v39 (F := Ideal) x0 (ix3 g i j)
      = mm (mm (first (slab (val_main_v0 (F := Ideal) x0) g)) (first (slab (val_main_v0 (F := Ideal) x0) g))) (first (slab (val_main_v0 (F := Ideal) x0) g)) i j := by
  rw [val_main_v39_apply]
  simp only [lidx_v39, ridx_v39, v38_at, v37_at]
  rfl

/-- … and the cube times the Gram matrix. -/
theorem v42_at (x0 : (⟨S8192x1024, .f32⟩ : BufTy).Contents (Elt Ideal)) (g : Fin 32) (i j : Fin 1024) :
    val_main_v42 (F := Ideal) x0 (ix3 g i j)
      = mm (mm (mm (first (slab (val_main_v0 (F := Ideal) x0) g)) (first (slab (val_main_v0 (F := Ideal) x0) g))) (first (slab (val_main_v0 (F := Ideal) x0) g))) (gram (slab (val_main_v0 (F := Ideal) x0) g)) i j := by
  rw [val_main_v42_apply]
  simp only [lidx_v42, ridx_v42, v39_at, v18_at]
  rfl

/-- The second Newton–Schulz iterate. -/
theorem v45_at (x0 : (⟨S8192x1024, .f32⟩ : BufTy).Contents (Elt Ideal)) (g : Fin 32) (i j : Fin 1024) :
    val_main_v45 (F := Ideal) x0 (ix3 g i j) = newton (first (slab (val_main_v0 (F := Ideal) x0) g)) (gram (slab (val_main_v0 (F := Ideal) x0) g)) i j := by
  rw [val_main_v45_apply, val_main_v41_apply, val_main_v44_apply, val_main_v40_apply, val_main_v43_apply,
    val_main_cst_6_apply, val_main_cst_7_apply, v37_at, v42_at]
  rfl

/-- The centred rows times the second iterate. -/
theorem v46_at (x0 : (⟨S8192x1024, .f32⟩ : BufTy).Contents (Elt Ideal)) (g : Fin 32) (r : Fin 256) (c : Fin 1024) :
    val_main_v46 (F := Ideal) x0 (ix3 g r c)
      = mm (centred (slab (val_main_v0 (F := Ideal) x0) g)) (newton (first (slab (val_main_v0 (F := Ideal) x0) g)) (gram (slab (val_main_v0 (F := Ideal) x0) g))) r c := by
  rw [val_main_v46_apply]
  simp only [lidx_v46, ridx_v46, v6_at, v45_at]
  rfl

/-- The whitened rows: the product over the root of the Gram matrix's norm. -/
theorem v49_at (x0 : (⟨S8192x1024, .f32⟩ : BufTy).Contents (Elt Ideal)) (g : Fin 32) (r : Fin 256) (c : Fin 1024) :
    val_main_v49 (F := Ideal) x0 (ix3 g r c) = whitened (slab (val_main_v0 (F := Ideal) x0) g) r c := by
  rw [val_main_v49_apply, val_main_v48_apply, val_main_v47_apply]
  have he : idx_main_v48 (ix3 g r c) = ix3 g (0 : Fin 1) (0 : Fin 1) :=
    funext fun a => Fin.ext (by match a with | ⟨0, _⟩ => rfl | ⟨1, _⟩ => rfl | ⟨2, _⟩ => rfl)
  rw [he, v22_at, v46_at]
  rfl

/-- The reference program's value before its last reshape is the whitening of its reshaped argument, group by group. -/
theorem ref_value (x0 : (⟨S8192x1024, .f32⟩ : BufTy).Contents (Elt Ideal)) :
    val_main_v49 (F := Ideal) x0 = whitenAll (val_main_v0 (F := Ideal) x0) := by
  funext j
  obtain ⟨g, r, c, rfl⟩ : ∃ (g : Fin 32) (r : Fin 256) (c : Fin 1024), j = ix3 g r c := ⟨j 0, j 1, j 2, eq_ix3 j⟩
  rw [whitenAll_ix3, v49_at]

end Cert.ReferenceIdeal.RefValue

end
-- ==== Proof.lean ====
/-
  Group-wise whitening of a weight matrix by two Newton–Schulz steps: the kernel against its reference, on the
  extended reals.

  Both programs reshape the `[8192, 1024]` argument to 32 groups of 256 rows and, per group, centre the rows,
  form the regularised Gram matrix `S` of the columns and its Frobenius norm `n`, take two Newton–Schulz steps
  `B ← 3/2·B − 1/2·((B·B)·B)·S` from the identity, and return the centred rows times the second iterate over
  `√n`, reshaped back (Proof/Spec.lean states this as one function, `whitenAll`). They differ in three ways, none
  of which the extended reals see: the kernel rounds its matrix operands to a narrower format (a change of format
  is the identity); it sums the squares of `S` row by row and then over the rows where the reference sums over
  both axes at once (addition is commutative and associative); and it writes the first step, whose start is the
  identity, directly as `3/2·I − 1/2·S` where the reference forms the three products with the identity — equal
  because `0·x = 0` and `1·x = x` for every extended real, infinite ones included (`Cert.Whiten.eye_mm`), so no
  finiteness of the input is used.

  The kernel side (Proof/KernelMatmul, KernelLayout, KernelBody, KernelValue) reads the body's stored block as the
  specification's function of the loaded block, index by index, then the 32 blocks as one array, then the two host
  reshapes around the region. The reference side (Proof/RefValue) reads the host program stage by stage. The three
  frames are the generated runs; no rewrite was applied to the kernel, so `preserves` is trivial.
-/
import proofs.«151079_j12421045420977_2_alg».proof.Defs
import proofs.«151079_j12421045420977_2_alg».proof.Proof.Gen.Kernel
import proofs.«151079_j12421045420977_2_alg».proof.Proof.Gen.Kernel.Skeleton
import proofs.«151079_j12421045420977_2_alg».proof.Proof.Gen.Kernel.Launch
import proofs.«151079_j12421045420977_2_alg».proof.Proof.Gen.Kernel.Points
import proofs.«151079_j12421045420977_2_alg».proof.Proof.Gen.Kernel.Frame
import proofs.«151079_j12421045420977_2_alg».proof.Proof.Gen.KernelIdeal
import proofs.«151079_j12421045420977_2_alg».proof.Proof.Gen.KernelIdeal.Skeleton
import proofs.«151079_j12421045420977_2_alg».proof.Proof.Gen.KernelIdeal.Launch
import proofs.«151079_j12421045420977_2_alg».proof.Proof.Gen.KernelIdeal.Points
import proofs.«151079_j12421045420977_2_alg».proof.Proof.Gen.KernelIdeal.Frame
import proofs.«151079_j12421045420977_2_alg».proof.Proof.Gen.ReferenceIdeal
import proofs.«151079_j12421045420977_2_alg».proof.Proof.Gen.Pre_finite_inputs
import proofs.«151079_j12421045420977_2_alg».proof.Proof.Gen.ReferenceIdeal.Run
import proofs.«151079_j12421045420977_2_alg».proof.Proof.Gen.ReferenceIdeal.Read
import proofs.«151079_j12421045420977_2_alg».proof.Proof.KernelValue
import proofs.«151079_j12421045420977_2_alg».proof.Proof.RefValue
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From arguments that agree, both programs end at the whitening of the reshaped argument, reshaped back: the
    kernel by its value run, the reference by its run read stage by stage. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v50_eq (F := Ideal) m' c).trans ?_
  unfold Cert.ReferenceIdeal.Read.val_main_v50
  rw [Cert.ReferenceIdeal.RefValue.ref_value, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
